-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 16
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .bf16⟩
  | .hbm, ⟨14, _⟩ => ⟨S8192x4096, .f32⟩
  | .hbm, ⟨15, _⟩ => ⟨S4x2048x4096, .f32⟩
  | .local _ .vmem, ⟨0, _⟩ => ⟨S2048x512, .f32⟩
  | .local _ .vmem, ⟨1, _⟩ => ⟨S2048x512, .f32⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  shapeCasts_S4096_S1x4096 : S4096.ShapeCasts S1x4096
  bcast_S_S4096x4096 : S_.BroadcastsInDim S4096x4096 (![] : Fin 0 → Fin S4096x4096.rank)
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .f32 = 32 ∨ (Rect.block (s := S8192x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S1x1x4096 : Shape := ⟨3, ![1, 1, 4096]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .i1⟩
  | .hbm, ⟨7, _⟩ => ⟨S4096x4096, .f32⟩
  | .hbm, ⟨8, _⟩ => ⟨S_, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4x2048x4096, .f32⟩
  | .hbm, ⟨13, _⟩ => ⟨S1x1x4096, .f32⟩
  | .hbm, ⟨14, _⟩ => ⟨S4x2048x4096, .f32⟩
  | .hbm, ⟨15, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
import proofs.«172593_j89799176225619_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-! # What one grid step leaves in the accumulator and in the output block

The body has three control cases. At the first column block of a row of output blocks it zeroes the
accumulator and adds the block product; at a middle column block it adds the block product to what
the step before left; at the last column block it does the same and then stores accumulator plus
bias into the output block. Each store covers its whole buffer, so what a buffer holds after the
step is the payload of the last store into it, with the loads read from the whole input blocks. -/

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A middle column block: the accumulator ends at what it held plus the block product. -/
theorem sout_B (c : Dev nD) (i : grid0.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : ¬cond0_1 i)
    (x0 : Vec F S2048x512 .f32) (x1 : Vec F S1024x512 .bf16) (x2 : Vec F S1x1024 .f32) (xs0 : Vec F S2048x1024 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero hz]
  simp only [View.readAt_eq_ld, harg3.read_unread, harg4.read_unread, harg7.read_unread,
    View.ld_unit_zero (S := S2048x512) hz, View.ld_unit_zero (S := S1024x512) hz, View.ld_unit_zero (S := S2048x1024) hz]

/-- The last column block: the accumulator likewise, -/
theorem sout_C (c : Dev nD) (i : grid0.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x512 .f32) (x1 : Vec F S1024x512 .bf16) (x2 : Vec F S1x1024 .f32) (xs0 : Vec F S2048x1024 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread,
    View.ld_unit_zero (S := S2048x512) hz, View.ld_unit_zero (S := S1024x512) hz, View.ld_unit_zero (S := S2048x1024) hz,
    View.ld_unit_zero (S := S1x1024) hz]

/-- and the output block ends at that accumulator plus the bias row. -/
theorem out_C (c : Dev nD) (i : grid0.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x512 .f32) (x1 : Vec F S1024x512 .bf16) (x2 : Vec F S1x1024 .f32) (xs0 : Vec F S2048x1024 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz, View.readCov_unit_zero (S := S2048x1024) _ hz]
  simp only [View.readAt_eq_ld, harg3.read_unread, harg4.read_unread, harg5.read_unread, harg7.read_unread,
    View.ld_unit_zero (S := S2048x512) hz, View.ld_unit_zero (S := S1024x512) hz, View.ld_unit_zero (S := S2048x1024) hz,
    View.ld_unit_zero (S := S1x1024) hz]

/-- The first column block: the accumulator is zeroed, then gains the block product. -/
theorem sout_A (c : Dev nD) (i : grid0.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond0_0 i) (hc1 : ¬cond0_1 i)
    (x0 : Vec F S2048x512 .f32) (x1 : Vec F S1024x512 .bf16) (x2 : Vec F S1x1024 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S2048x1024) hz, View.readCov_unit_zero (S := S2048x1024) _ hz]
  simp only [View.readAt_eq_ld, harg3.read_unread, harg4.read_unread, harg5.read_unread, harg7.read_unread,
    View.ld_unit_zero (S := S2048x512) hz, View.ld_unit_zero (S := S1024x512) hz, View.ld_unit_zero (S := S2048x1024) hz,
    View.ld_unit_zero (S := S1x1024) hz]

end Cert.KernelIdeal.Pieces

end
-- ==== Proof.Steps.lean ====
import proofs.«172593_j89799176225619_2_alg».proof.Proof.Pieces

set_option maxRecDepth 16384

noncomputable section

open Idealize.ShloMosaic Idealize.ShloMosaic.TcCoe Idealize.SL.Sem

/-! # The accumulator and the output block after each grid step, in terms of the step before

At a step whose contraction-block coordinate is 0 the accumulator restarts from the zero block; at
every other step it continues from what the previous step left; at coordinate 7 the output block
receives accumulator plus bias. -/

namespace Cert.KernelIdeal.Steps

open Cert.KernelIdeal Cert.KernelIdeal.Gen

variable {F : FTy → Type} [FloatOps F]
variable (m : (ℓ : Loc nD τ sig) → Buf (Elt F) ℓ)

/-- What the step before `t` left in the accumulator. -/
abbrev prevAcc (c : Dev nD) (t : Fin cfg0.N) : Vec F S2048x1024 .f32 :=
  (outsAt0 m c (t.val - 1) (Nat.lt_of_le_of_lt (Nat.sub_le _ _) t.isLt)).2

theorem acc_first (c : Dev nD) (t : Fin cfg0.N) (h0 : t.val % 8 = 0) (h1 : ¬t.val % 8 = 7) :
    (outsAt0 m c t.val t.isLt).2 = k0_pay2 (iblk m c 0 t) (iblk m c 1 t) (k0_pay1 (F := F)) := by
  rw [outsAt0_A m c t h0 h1]
  dsimp only
  exact Pieces.sout_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

theorem acc_middle (c : Dev nD) (t : Fin cfg0.N) (h0 : ¬t.val % 8 = 0) (h1 : ¬t.val % 8 = 7) :
    (outsAt0 m c t.val t.isLt).2 = k0_pay2 (iblk m c 0 t) (iblk m c 1 t) (prevAcc m c t) := by
  rw [outsAt0_B m c t h0 h1]
  dsimp only
  exact Pieces.sout_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (prevAcc m c t)

theorem acc_last (c : Dev nD) (t : Fin cfg0.N) (h0 : ¬t.val % 8 = 0) (h1 : t.val % 8 = 7) :
    (outsAt0 m c t.val t.isLt).2 = k0_pay2 (iblk m c 0 t) (iblk m c 1 t) (prevAcc m c t) := by
  rw [outsAt0_C m c t h0 h1]
  dsimp only
  exact Pieces.sout_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (prevAcc m c t)

theorem out_last (c : Dev nD) (t : Fin cfg0.N) (h0 : ¬t.val % 8 = 0) (h1 : t.val % 8 = 7) :
    (outsAt0 m c t.val t.isLt).1 = k0_pay3 (k0_pay2 (iblk m c 0 t) (iblk m c 1 t) (prevAcc m c t)) (iblk m c 2 t) := by
  rw [outsAt0_C m c t h0 h1]
  dsimp only
  exact Pieces.out_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (prevAcc m c t)

end Cert.KernelIdeal.Steps

end
-- ==== Proof.Blocks.lean ====
import proofs.«172593_j89799176225619_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

/-! # Which part of each array a grid step reads and writes

The grid has 4 × 4 × 8 steps; step `t` has row-block coordinate `t / 32`, output-column-block
coordinate `t / 8 % 4` and contraction-block coordinate `t % 8`. The activation window's block at
`t` is rows `2048 (t/32) …`, columns `512 (t%8) …` of the flattened activations; the weight window's is
rows `1024 (t/8%4) …`, columns `512 (t%8) …` of the ternary weights; the bias window's is columns
`1024 (t/8%4) …` of the bias row; the output window's is rows `2048 (t/32) …`, columns
`1024 (t/8%4) …` of the result. An element of a block sits, on each axis, at block index times block
size plus its own coordinate. -/

namespace Cert.KernelIdeal.Blocks

open Cert.KernelIdeal Cert.KernelIdeal.Gen

variable {F : FTy → Type} [FloatOps F]
variable (m : (ℓ : Loc nD τ sig) → Buf (Elt F) ℓ)

/-- The three input blocks at step `t`, at their literal shapes. -/
abbrev actsBlk (c : Dev nD) (t : Fin cfg0.N) : Vec F S2048x512 .f32 := iblk m c 0 t
abbrev wtsBlk (c : Dev nD) (t : Fin cfg0.N) : Vec F S1024x512 .bf16 := iblk m c 1 t
abbrev biasBlk (c : Dev nD) (t : Fin cfg0.N) : Vec F S1x1024 .f32 := iblk m c 2 t

/-- The printed index maps, decided once over the 128 grid steps. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

/-- The activation block at step `t`, entry `(p, kk)`. -/
theorem acts_apply (c : Dev nD) (t : Fin cfg0.N) (p : Fin 2048) (kk : Fin 512) (r : Fin 8192) (k : Fin 4096)
    (hr : r.val = t.val / 32 * 2048 + p.val) (hk : k.val = t.val % 8 * 512 + kk.val) :
    (iblk m c 0 t : Vec F S2048x512 .f32) (ix2 p kk) = (V m c main_v0 : S8192x4096.Idx → Elt F .f32) (ix2 r k) := by
  obtain ⟨e0, e1, -⟩ := idx_facts t
  unfold iblk
  rw [View.read_apply]
  show V m c main_v0 (((cfg0.win 0).blk t).view.emb (ix2 p kk)) = V m c main_v0 (ix2 r k)
  refine congrArg (V m c main_v0) (funext fun a => Fin.ext ?_)
  match a with
  | ⟨0, _⟩ => show win0_0.index t (0 : Fin 2) * 2048 + 1 * p.val = r.val; rw [e0, hr]; omega
  | ⟨1, _⟩ => show win0_0.index t (1 : Fin 2) * 512 + 1 * kk.val = k.val; rw [e1, hk]; omega

/-- The weight block at step `t`, entry `(q, kk)`. -/
theorem weights_apply (c : Dev nD) (t : Fin cfg0.N) (q : Fin 1024) (kk : Fin 512) (o : Fin 4096) (k : Fin 4096)
    (ho : o.val = t.val / 8 % 4 * 1024 + q.val) (hk : k.val = t.val % 8 * 512 + kk.val) :
    (iblk m c 1 t : Vec F S1024x512 .bf16) (ix2 q kk) = (V m c main_v7 : S4096x4096.Idx → Elt F .bf16) (ix2 o k) := by
  obtain ⟨-, -, e0, e1, -⟩ := idx_facts t
  unfold iblk
  rw [View.read_apply]
  show V m c main_v7 (((cfg0.win 1).blk t).view.emb (ix2 q kk)) = V m c main_v7 (ix2 o k)
  refine congrArg (V m c main_v7) (funext fun a => Fin.ext ?_)
  match a with
  | ⟨0, _⟩ => show win0_1.index t (0 : Fin 2) * 1024 + 1 * q.val = o.val; rw [e0, ho]; omega
  | ⟨1, _⟩ => show win0_1.index t (1 : Fin 2) * 512 + 1 * kk.val = k.val; rw [e1, hk]; omega

/-- The bias block at step `t`, entry `(0, q)`. -/
theorem bias_apply (c : Dev nD) (t : Fin cfg0.N) (q : Fin 1024) (o : Fin 4096)
    (ho : o.val = t.val / 8 % 4 * 1024 + q.val) :
    (iblk m c 2 t : Vec F S1x1024 .f32) (ix2 (0 : Fin 1) q) = (V m c main_v1 : S1x4096.Idx → Elt F .f32) (ix2 (0 : Fin 1) o) := by
  obtain ⟨-, -, -, -, e0, e1, -⟩ := idx_facts t
  unfold iblk
  rw [View.read_apply]
  show V m c main_v1 (((cfg0.win 2).blk t).view.emb (ix2 (0 : Fin 1) q)) = V m c main_v1 (ix2 (0 : Fin 1) o)
  refine congrArg (V m c main_v1) (funext fun a => Fin.ext ?_)
  match a with
  | ⟨0, _⟩ => show win0_2.index t (0 : Fin 2) * 1 + 1 * (0 : Fin 1).val = (0 : Fin 1).val; rw [e0]; omega
  | ⟨1, _⟩ => show win0_2.index t (1 : Fin 2) * 1024 + 1 * q.val = o.val; rw [e1, ho]; omega

end Cert.KernelIdeal.Blocks

end
-- ==== Proof.Payload.lean ====
import proofs.«172593_j89799176225619_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

/-! # The body's three stored values, entry by entry, over the extended reals

The zero block is zero everywhere. The accumulation step's value at row `p`, column `q` is the
accumulator there plus the dot product of row `p` of the activation block with row `q` of the weight
block over the block's 512 columns: rounding the activations to a narrower format is the identity on
extended reals, and the matrix unit started from a zero accumulator contributes just the sum. The
epilogue's value is the accumulator plus the bias row's entry at column `q`. -/

namespace Cert.KernelIdeal.Payload

open Cert.KernelIdeal Cert.KernelIdeal.Gen

abbrev DD : DotDims S2048x512 S1024x512 S2048x1024 := dot_S2048x512_S1024x512_S2048x1024_1_1_0_0_n_n

theorem lhs0 (j : S2048x1024.Idx) (k : DD.contr.Idx) : (DD.lhsIdx j k 0).val = (j 0).val := by
  unfold DotDims.lhsIdx
  rw [dif_neg (show ¬(0 : Fin S2048x512.rank) ∈ DD.lhsBatch by decide), dif_pos (show (0 : Fin S2048x512.rank) ∈ DD.lhsNonContracting by decide)]
  rfl
theorem lhs1 (j : S2048x1024.Idx) (k : DD.contr.Idx) : (DD.lhsIdx j k 1).val = (k ⟨0, by decide⟩).val :=
  DD.lhsIdx_val_of_single rfl j k
theorem rhs0 (j : S2048x1024.Idx) (k : DD.contr.Idx) : (DD.rhsIdx j k 0).val = (j 1).val := by
  unfold DotDims.rhsIdx
  rw [dif_neg (show ¬(0 : Fin S1024x512.rank) ∈ DD.rhsBatch by decide), dif_pos (show (0 : Fin S1024x512.rank) ∈ DD.rhsNonContracting by decide)]
  rfl
theorem rhs1 (j : S2048x1024.Idx) (k : DD.contr.Idx) : (DD.rhsIdx j k 1).val = (k ⟨0, by decide⟩).val :=
  DD.rhsIdx_val_of_single rfl j k

/-- The zero block. -/
theorem pay1_apply (j : S2048x1024.Idx) : k0_pay1 (F := Ideal) j = 0 := by
  unfold k0_pay1
  simp only [shapeCast_self]
  exact Ideal.ofBits_zero_f32

/-- The block product into a zero accumulator, at `(p, q)`: the sum over the block's columns. -/
theorem blockDot_apply (x0 : FVec Ideal S2048x512 .bf16) (x1 : FVec Ideal S1024x512 .bf16) (p : Fin 2048) (q : Fin 1024) :
    FloatOps.matmul DD none x0 x1 (constant (F := Ideal) S2048x1024 .f32 0x00000000#32) (ix2 p q)
      = ∑ kk : Fin 512, x0 (ix2 p kk) * x1 (ix2 q kk) := by
  rw [Ideal.matmul_constant_zero_apply, ← Equiv.sum_comp (contrEquiv1 DD 512 rfl rfl).symm]
  refine Finset.sum_congr rfl fun k _ => ?_
  have hk := contrEquiv1_symm_val DD 512 rfl rfl k
  have el : DD.lhsIdx (ix2 p q) ((contrEquiv1 DD 512 rfl rfl).symm k) = ix2 p k := funext fun a => Fin.ext (by
    match a with
    | ⟨0, _⟩ => exact lhs0 _ _
    | ⟨1, _⟩ => exact (lhs1 _ _).trans hk)
  have er : DD.rhsIdx (ix2 p q) ((contrEquiv1 DD 512 rfl rfl).symm k) = ix2 q k := funext fun a => Fin.ext (by
    match a with
    | ⟨0, _⟩ => exact rhs0 _ _
    | ⟨1, _⟩ => exact (rhs1 _ _).trans hk)
  rw [el, er]

/-- The accumulation step. -/
theorem pay2_apply (x0 : Vec Ideal S2048x512 .f32) (x1 : Vec Ideal S1024x512 .bf16) (acc : Vec Ideal S2048x1024 .f32)
    (p : Fin 2048) (q : Fin 1024) :
    k0_pay2 x0 x1 acc (ix2 p q) = acc (ix2 p q) + ∑ kk : Fin 512, x0 (ix2 p kk) * x1 (ix2 q kk) := by
  unfold k0_pay2
  simp only [shapeCast_self]
  exact congrArg (acc (ix2 p q) + ·) (blockDot_apply (fun i => x0 i) x1 p q)

/-- The epilogue. -/
theorem pay3_apply (a : Vec Ideal S2048x1024 .f32) (b : Vec Ideal S1x1024 .f32) (p : Fin 2048) (q : Fin 1024) :
    k0_pay3 a b (ix2 p q) = a (ix2 p q) + b (ix2 (0 : Fin 1) q) := by
  unfold k0_pay3
  simp only [shapeCast_self]
  exact congrArg (a (ix2 p q) + ·) (broadcastTo_1b_ab_apply b broadcasts_S1x1024_S2048x1024 p q)

end Cert.KernelIdeal.Payload

end
-- ==== Proof.Spec.lean ====
import Idealize.ShloMosaic.PureOps.Ideal
import Idealize.ShloMosaic.Lib.ValueIdx
import Idealize.ShloMosaic.Lib.ValueLayout
import Idealize.ShloMosaic.Lib.Pipeline.Value

noncomputable section

open scoped BigOperators
open Idealize.ShloMosaic Idealize.ShloMosaic.ValueIdx

/-! # A ternary-weight linear layer: the specification and the one law it needs

With activations `X` of 8192 rows and weights `W` of 4096 rows, both of 4096 columns, the layer's
entry at row `r` and output feature `o` is the dot product of the two rows plus a bias. The kernel
accumulates that dot product eight column blocks of 512 at a time; the reference takes it at once. The
two agree because a sum over the first `n + 512` positions is the sum over the first `n` plus the sum
over the next 512 — addition on the extended reals is commutative and associative, infinities
included, so nothing here asks the entries to be finite. -/

namespace Cert.BitLinear

abbrev SX : Shape := ⟨2, ![8192, 4096]⟩
abbrev SW : Shape := ⟨2, ![4096, 4096]⟩
abbrev SB : Shape := ⟨2, ![1, 4096]⟩

variable (X : SX.Idx → EReal) (W : SW.Idx → EReal) (r : Fin 8192) (o : Fin 4096)

/-- The product of row `r` of `X` and row `o` of `W` at column `k`, as a function of a natural
    number: zero past the last column. -/
def term (k : ℕ) : EReal :=
  if h : k < 4096 then X (ix2 r ⟨k, h⟩) * W (ix2 o ⟨k, h⟩) else 0

/-- The dot product of the two rows over their first `n` columns. -/
def partialDot (n : ℕ) : EReal := ∑ k ∈ Finset.range n, term X W r o k

theorem partialDot_zero : partialDot X W r o 0 = 0 := Finset.sum_range_zero _

/-- One more block of 512 columns. -/
theorem partialDot_add (n : ℕ) :
    partialDot X W r o (n + 512) = partialDot X W r o n + ∑ kk : Fin 512, term X W r o (n + kk.val) := by
  unfold partialDot
  rw [Finset.sum_range_add, ← Fin.sum_univ_eq_sum_range (fun kk => term X W r o (n + kk)) 512]

/-- All 4096 columns: the whole dot product. -/
theorem partialDot_full :
    partialDot X W r o 4096 = ∑ k : Fin 4096, X (ix2 r k) * W (ix2 o k) := by
  unfold partialDot
  rw [← Fin.sum_univ_eq_sum_range (fun k => term X W r o k) 4096]
  refine Finset.sum_congr rfl fun k _ => ?_
  unfold term
  rw [dif_pos k.isLt]

/-- The first block of a row of output blocks: the accumulator restarts from zero. -/
theorem partialDot_first (j : ℕ) (hj : j = 0) :
    (0 : EReal) + ∑ kk : Fin 512, term X W r o (512 * j + kk.val) = partialDot X W r o (512 * j + 512) := by
  subst hj
  rw [partialDot_add, show 512 * 0 = 0 from rfl, partialDot_zero]

/-- Every later block: the accumulator continues. -/
theorem partialDot_next (j : ℕ) :
    partialDot X W r o (512 * j + 512) + ∑ kk : Fin 512, term X W r o (512 * (j + 1) + kk.val)
      = partialDot X W r o (512 * (j + 1) + 512) := by
  rw [show 512 * (j + 1) = 512 * j + 512 from Nat.mul_succ 512 j]
  exact (partialDot_add X W r o (512 * j + 512)).symm

/-- The ternary weights: `0` where the weight's absolute value is below the threshold (the f32 nearest
    to 0.33, the same word in both programs), the weight's sign elsewhere. Both programs apply these
    same host operations to the weight argument, so the proof carries them as this one function and
    never opens it. -/
def ternarize {F : FTy → Type} [FloatOps F] (hb : (⟨0, ![]⟩ : Shape).BroadcastsInDim SW (![] : Fin 0 → Fin SW.rank))
    (w : FVec F SW .f32) : FVec F SW .f32 :=
  select (cmpf .olt (Host.absf w) (broadcastInDim SW ![] hb (constant ⟨0, ![]⟩ .f32 0x3EA8F5C3#32)))
    (broadcastInDim SW ![] hb (constant ⟨0, ![]⟩ .f32 0x00000000#32)) (Host.sign w)

/-- The layer on the flattened activations: entry `(r, o)` is the dot product of row `r` of `X` and
    row `o` of `W`, plus the bias at `o`. -/
def linear2 (B : SB.Idx → EReal) : SX.Idx → EReal :=
  fun i => (∑ k : Fin 4096, X (ix2 (i 0) k) * W (ix2 (i 1) k)) + B (ix2 (0 : Fin 1) (i 1))

abbrev S3 : Shape := ⟨3, ![4, 2048, 4096]⟩
abbrev S1 : Shape := ⟨1, ![4096]⟩

/-- The layer on the activations as given, batch × sequence × features: entry `(a, s, o)` is the dot
    product of the activation row `(a, s)` with weight row `o`, plus the bias at `o`. -/
def linear3 (x : S3.Idx → EReal) (w : SW.Idx → EReal) (b : S1.Idx → EReal) : S3.Idx → EReal :=
  fun i => (∑ k : Fin 4096, x (ix3 (i 0 : Fin 4) (i 1 : Fin 2048) k) * w (ix2 (i 2 : Fin 4096) k)) + b (ix1 (i 2 : Fin 4096))

/-- Flattening the two leading axes of the activations, applying the flat layer, and unflattening
    the result is the layer itself: entry `(a, s, k)` of the activations sits at row `2048 a + s` of
    the flattened array, and the bias viewed as one row reads the bias. -/
theorem reshape_linear2 (x : S3.Idx → EReal) (w : SW.Idx → EReal) (b : S1.Idx → EReal)
    (hx : S3.ShapeCasts SX) (hb : S1.ShapeCasts SB) (ho : SX.ShapeCasts S3) :
    shapeCast S3 (linear2 (shapeCast SX x hx) w (shapeCast SB b hb)) ho = linear3 x w b := by
  funext i
  obtain ⟨a, s, o, rfl⟩ : ∃ (a : Fin 4) (s : Fin 2048) (o : Fin 4096), i = ix3 a s o := ⟨i 0, i 1, i 2, eq_ix3 i⟩
  have hrow : a.val * 2048 + s.val < 8192 := by have := a.isLt; have := s.isLt; omega
  refine (shapeCast_apply _ ho (ix3 a s o) (ix2 (⟨a.val * 2048 + s.val, hrow⟩ : Fin 8192) o) (by
    rw [Shape.rowMajor_val_two, Shape.rowMajor_val_three]; rfl)).trans ?_
  unfold linear2 linear3
  refine congrArg₂ (· + ·) (Finset.sum_congr rfl fun k _ => congrArg (· * w (ix2 o k)) ?_) ?_
  · exact shapeCast_apply x hx (ix2 (⟨a.val * 2048 + s.val, hrow⟩ : Fin 8192) k) (ix3 a s k) (by
      rw [Shape.rowMajor_val_two, Shape.rowMajor_val_three]; rfl)
  · exact shapeCast_a_1a_apply b hb (0 : Fin 1) o

end Cert.BitLinear

end
-- ==== Proof.Accum.lean ====
import proofs.«172593_j89799176225619_2_alg».proof.Proof.Steps
import proofs.«172593_j89799176225619_2_alg».proof.Proof.Blocks
import proofs.«172593_j89799176225619_2_alg».proof.Proof.Payload
import proofs.«172593_j89799176225619_2_alg».proof.Proof.Spec

set_option maxRecDepth 16384

noncomputable section

open scoped BigOperators
open Idealize.ShloMosaic Idealize.ShloMosaic.TcCoe Idealize.SL.Sem Idealize.ShloMosaic.ValueIdx

/-! # The accumulator after every grid step, in closed form

Write `X` for the flattened activations, `W` for the ternary weights and `B` for the bias row, as
the kernel's windows find them. After step `n` — row block `n / 32`, output-column block `n / 8 % 4`,
contraction block `n % 8` — the accumulator's entry `(p, q)` is the dot product of row
`2048 (n/32) + p` of `X` with row `1024 (n/8%4) + q` of `W` over the first `512 (n%8) + 512` columns.
By induction on `n`: at contraction block 0 the accumulator restarts from zero and gains the first
512 columns; at any other block the step before had the same row and column blocks and one block
fewer, and this step adds the next 512 columns. At contraction block 7 that is the whole dot
product, and the output block receives it plus the bias. -/

namespace Cert.KernelIdeal.Accum

open Cert.KernelIdeal Cert.KernelIdeal.Gen Cert.BitLinear

variable (m : (ℓ : Loc nD τ sig) → Buf (Elt Ideal) ℓ)

/-- The flattened activations as the region finds them. -/
def acts (c : Dev nD) : SX.Idx → EReal := fun i => (V m c main_v0 : S8192x4096.Idx → Elt Ideal .f32) i
/-- The ternary weights as the region finds them. -/
def wts (c : Dev nD) : SW.Idx → EReal := fun i => (V m c main_v7 : S4096x4096.Idx → Elt Ideal .bf16) i
/-- The bias row as the region finds it. -/
def biasRow (c : Dev nD) : SB.Idx → EReal := fun i => (V m c main_v1 : S1x4096.Idx → Elt Ideal .f32) i

theorem acts_apply (c : Dev nD) (i : SX.Idx) : acts m c i = (V m c main_v0 : S8192x4096.Idx → Elt Ideal .f32) i := rfl
theorem wts_apply (c : Dev nD) (i : SW.Idx) : wts m c i = (V m c main_v7 : S4096x4096.Idx → Elt Ideal .bf16) i := rfl
theorem biasRow_apply (c : Dev nD) (i : SB.Idx) : biasRow m c i = (V m c main_v1 : S1x4096.Idx → Elt Ideal .f32) i := rfl

/-- The array row under entry `p` of step `n`'s activation and output blocks. -/
def rowOf (n : ℕ) (p : Fin 2048) : Fin 8192 := ⟨n / 32 % 4 * 2048 + p.val, by have := p.isLt; omega⟩
/-- The weight row (output feature) under entry `q` of step `n`'s weight, bias and output blocks. -/
def colOf (n : ℕ) (q : Fin 1024) : Fin 4096 := ⟨n / 8 % 4 * 1024 + q.val, by have := q.isLt; omega⟩

/-- The block product at step `t`, entry `(p, q)`: the terms of the dot product at the step's 512 columns. -/
theorem block_sum (c : Dev nD) (t : Fin cfg0.N) (p : Fin 2048) (q : Fin 1024) :
    ∑ kk : Fin 512, Blocks.actsBlk m c t (ix2 p kk) * Blocks.wtsBlk m c t (ix2 q kk)
      = ∑ kk : Fin 512, term (acts m c) (wts m c) (rowOf t.val p) (colOf t.val q) (512 * (t.val % 8) + kk.val) := by
  have hN : t.val < 128 := lt_of_lt_of_eq t.isLt N_0
  refine Finset.sum_congr rfl fun kk _ => ?_
  have hk : 512 * (t.val % 8) + kk.val < 4096 := by have := kk.isLt; omega
  unfold term
  rw [dif_pos hk, acts_apply, wts_apply]
  exact congrArg₂ (· * ·)
    (Blocks.acts_apply m c t p kk (rowOf t.val p) ⟨_, hk⟩ (by show t.val / 32 % 4 * 2048 + p.val = _; omega)
      (by show 512 * (t.val % 8) + kk.val = _; omega))
    (Blocks.weights_apply m c t q kk (colOf t.val q) ⟨_, hk⟩ (by show t.val / 8 % 4 * 1024 + q.val = _; omega)
      (by show 512 * (t.val % 8) + kk.val = _; omega))

/-- The accumulation step at `t`, entry `(p, q)`. -/
theorem pay2_at (c : Dev nD) (t : Fin cfg0.N) (acc : Vec Ideal S2048x1024 .f32) (p : Fin 2048) (q : Fin 1024) :
    k0_pay2 (iblk m c 0 t) (iblk m c 1 t) acc (ix2 p q)
      = acc (ix2 p q) + ∑ kk : Fin 512, term (acts m c) (wts m c) (rowOf t.val p) (colOf t.val q) (512 * (t.val % 8) + kk.val) :=
  (Payload.pay2_apply (iblk m c 0 t) (iblk m c 1 t) acc p q).trans (congrArg (acc (ix2 p q) + ·) (block_sum m c t p q))

/-- THE INVARIANT: the accumulator after step `n`. -/
theorem acc_eq (c : Dev nD) : ∀ (n : ℕ) (hn : n < cfg0.N) (p : Fin 2048) (q : Fin 1024),
    (outsAt0 m c n hn).2 (ix2 p q)
      = partialDot (acts m c) (wts m c) (rowOf n p) (colOf n q) (512 * (n % 8) + 512) := by
  intro n
  induction n with
  | zero =>
    intro hn p q
    refine (congrFun (Steps.acc_first m c ⟨0, hn⟩ (Nat.zero_mod 8) (by show ¬(0 % 8 = 7); decide)) (ix2 p q)).trans ?_
    rw [pay2_at m c ⟨0, hn⟩, Payload.pay1_apply]
    exact partialDot_first _ _ _ _ (0 % 8) (Nat.zero_mod 8)
  | succ k ih =>
    intro hn p q
    have hN : k + 1 < 128 := lt_of_lt_of_eq hn N_0
    by_cases h0 : (k + 1) % 8 = 0
    · refine (congrFun (Steps.acc_first m c ⟨k + 1, hn⟩ h0 (by show ¬(k + 1) % 8 = 7; omega)) (ix2 p q)).trans ?_
      rw [pay2_at m c ⟨k + 1, hn⟩, Payload.pay1_apply]
      exact partialDot_first _ _ _ _ ((k + 1) % 8) h0
    · have hprev : Steps.prevAcc m c ⟨k + 1, hn⟩ (ix2 p q)
          = partialDot (acts m c) (wts m c) (rowOf k p) (colOf k q) (512 * (k % 8) + 512) :=
        ih (Nat.lt_of_succ_lt hn) p q
      have hstep : (outsAt0 m c (k + 1) hn).2 (ix2 p q)
          = k0_pay2 (iblk m c 0 ⟨k + 1, hn⟩) (iblk m c 1 ⟨k + 1, hn⟩) (Steps.prevAcc m c ⟨k + 1, hn⟩) (ix2 p q) := by
        by_cases h1 : (k + 1) % 8 = 7
        · exact congrFun (Steps.acc_last m c ⟨k + 1, hn⟩ h0 h1) (ix2 p q)
        · exact congrFun (Steps.acc_middle m c ⟨k + 1, hn⟩ h0 h1) (ix2 p q)
      rw [hstep, pay2_at m c ⟨k + 1, hn⟩, hprev]
      have hr : rowOf (k + 1) p = rowOf k p := Fin.ext (by show (k + 1) / 32 % 4 * 2048 + p.val = k / 32 % 4 * 2048 + p.val; omega)
      have hc : colOf (k + 1) q = colOf k q := Fin.ext (by show (k + 1) / 8 % 4 * 1024 + q.val = k / 8 % 4 * 1024 + q.val; omega)
      have hm : (k + 1) % 8 = k % 8 + 1 := by omega
      show _ + ∑ kk : Fin 512, term _ _ (rowOf (k + 1) p) (colOf (k + 1) q) (512 * ((k + 1) % 8) + kk.val) = _
      rw [hr, hc, hm]
      exact partialDot_next _ _ _ _ (k % 8)

/-- What the last contraction step of a block stores into the output block: the whole dot product plus
    the bias. -/
theorem out_eq (c : Dev nD) (t : Fin cfg0.N) (h7 : t.val % 8 = 7) (p : Fin 2048) (q : Fin 1024) :
    (outsAt0 m c t.val t.isLt).1 (ix2 p q)
      = linear2 (acts m c) (wts m c) (biasRow m c) (ix2 (rowOf t.val p) (colOf t.val q)) := by
  have h0 : ¬t.val % 8 = 0 := by omega
  refine (congrFun (Steps.out_last m c t h0 h7) (ix2 p q)).trans ?_
  refine (Payload.pay3_apply (k0_pay2 (iblk m c 0 t) (iblk m c 1 t) (Steps.prevAcc m c t)) (iblk m c 2 t) p q).trans ?_
  rw [← congrFun (Steps.acc_last m c t h0 h7) (ix2 p q), acc_eq m c t.val t.isLt p q, h7, partialDot_full]
  unfold linear2
  rw [biasRow_apply]
  exact congrArg _ (Blocks.bias_apply m c t q (colOf t.val q) (by
    have hN : t.val < 128 := lt_of_lt_of_eq t.isLt N_0
    show t.val / 8 % 4 * 1024 + q.val = _; omega))

end Cert.KernelIdeal.Accum

end
-- ==== Proof.HostIn.lean ====
import proofs.«172593_j89799176225619_2_alg».proof.Proof.Gen.KernelIdeal.Frame
import proofs.«172593_j89799176225619_2_alg».proof.Proof.Spec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem

/-! # The three arrays the kernel's windows read, as functions of the arguments

Before the kernel is launched the host flattens the activations to 8192 rows, views the bias as
one row, and ternarizes the weights (then rounds them to a narrower format, the identity on
extended reals). -/

namespace Cert.KernelIdeal.HostIn

open Cert.KernelIdeal Cert.KernelIdeal.Gen

variable {F : FTy → Type} [FloatOps F]
variable (m : (ℓ : Loc nD τ sig) → Buf (Elt F) ℓ)

theorem V_acts (c : Dev nD) :
    (V m c main_v0 : S8192x4096.Idx → Elt F .f32)
      = shapeCast S8192x4096 (m ((c : Thread nD τ).loc main_arg0)) shapeCasts_S4x2048x4096_S8192x4096 := by
  dsimp only [V, V0]
  simp only [hostOps0, hostOps0_1, hostOps0_2, List.flatten_cons, List.flatten_nil, List.append_nil, List.cons_append,
    List.nil_append]
  after_results
  rfl

theorem V_bias (c : Dev nD) :
    (V m c main_v1 : S1x4096.Idx → Elt F .f32)
      = shapeCast S1x4096 (m ((c : Thread nD τ).loc main_arg2)) shapeCasts_S4096_S1x4096 := by
  dsimp only [V, V0]
  simp only [hostOps0, hostOps0_1, hostOps0_2, List.flatten_cons, List.flatten_nil, List.append_nil, List.cons_append,
    List.nil_append]
  after_results
  rfl

theorem V_weights (c : Dev nD) :
    (V m c main_v7 : S4096x4096.Idx → Elt F .bf16)
      = truncf .bf16 (Cert.BitLinear.ternarize (F := F) bcast_S_S4096x4096 (m ((c : Thread nD τ).loc main_arg1))) bitsLt_bf16_f32 := by
  dsimp only [V, V0]
  simp only [hostOps0, hostOps0_1, hostOps0_2, List.flatten_cons, List.flatten_nil, List.append_nil, List.cons_append,
    List.nil_append]
  after_results
  rfl

end Cert.KernelIdeal.HostIn

end
-- ==== Proof.Final.lean ====
import proofs.«172593_j89799176225619_2_alg».proof.Proof.Accum
import proofs.«172593_j89799176225619_2_alg».proof.Proof.HostIn
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

/-! # From the output blocks to the result array, and the kernel's run

The output window writes a block back exactly at the steps whose contraction block is the last one,
and what it writes there is that block of one whole-array function: the flat layer of the flattened
activations, the ternary weights and the bias row. The sixteen written blocks tile the 8192 × 4096
result, so after the run the result array is that function; the host then views it as
batch × sequence × features, which gives the layer on the arguments as given. -/

namespace Cert.KernelIdeal.Final

open Cert.KernelIdeal Cert.KernelIdeal.Gen Cert.BitLinear

variable (m : (ℓ : Loc nD τ sig) → Buf (Elt Ideal) ℓ) (ρ : Dev nD → PrngReg)

/-- The flat result array. -/
def result (c : Dev nD) : Buf (Elt Ideal) ((c : Thread nD τ).loc main_v8) :=
  linear2 (Accum.acts m c) (Accum.wts m c) (Accum.biasRow m c)

/-- Entry `j` of the block written back at a last contraction step is the result at the array index
    under `j`. -/
theorem block_entry (c : Dev nD) (t : Fin cfg0.N) (h7 : t.val % 8 = 7) (j : S2048x1024.Idx) :
    (outsAt0 m c t.val t.isLt).1 j = result m c (((cfg0.win 3).blk t).view.emb j) := by
  obtain ⟨p, q, rfl⟩ : ∃ (p : Fin 2048) (q : Fin 1024), j = ix2 p q := ⟨j 0, j 1, eq_ix2 j⟩
  rw [Accum.out_eq m c t h7 p q]
  obtain ⟨-, -, -, -, -, -, e0, e1⟩ := Blocks.idx_facts t
  have hN : t.val < 128 := lt_of_lt_of_eq t.isLt N_0
  unfold result
  refine congrArg (linear2 (Accum.acts m c) (Accum.wts m c) (Accum.biasRow m c)) (funext fun a => Fin.ext ?_)
  match a with
  | ⟨0, _⟩ => show t.val / 32 % 4 * 2048 + p.val = win0_3.index t (0 : Fin 2) * 2048 + 1 * p.val; rw [e0]; omega
  | ⟨1, _⟩ => show t.val / 8 % 4 * 1024 + q.val = win0_3.index t (1 : Fin 2) * 1024 + 1 * q.val; rw [e1]; omega

/-- What a flushing step writes back is its block of the result. -/
theorem flushed_eq (c : Dev nD) (t : Fin cfg0.N) (hf : (cfg0.win 3).flush t = true) :
    (dats m 0 c).flushed 3 t = ((cfg0.win 3).blk t).view.read (Elt Ideal) (result m c) := by
  have h7 : t.val % 8 = 7 := (flush0_3 t).mp hf
  show (cfg0.win 3).cut (grid0.coords t) ((dats m 0 c).after 3 t) = _
  rw [after0_3]
  funext j
  show (outsAt0 m c t.val t.isLt).1 j = result m c (((cfg0.win 3).blk t).view.emb j)
  exact block_entry m c t h7 j

/-- An index is in step `t`'s output block iff each coordinate is in the block's range. -/
theorem mem_blk (t : Fin cfg0.N) (i : S8192x4096.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v8).slice (win0_3.rect t)).set ↔ _
  rw [View.set_slice_whole, Rect.mem_set_unit]
  exact Iff.rfl

/-- Every index of the result is in the block of the last contraction step of its row and column blocks. -/
theorem cover (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  obtain ⟨tt, htt⟩ : ∃ tt : ℕ, tt = (i 0).val / 2048 * 32 + (i 1).val / 1024 * 8 + 7 := ⟨_, rfl⟩
  have hlt : tt < cfg0.N := by show tt < grid0.N; rw [N_0]; omega
  refine ⟨⟨tt, hlt⟩, (flush0_3 ⟨tt, hlt⟩).mpr (by show tt % 8 = 7; omega), ?_⟩
  rw [mem_blk]
  obtain ⟨-, -, -, -, -, -, e0, e1⟩ := Blocks.idx_facts ⟨tt, hlt⟩
  have e0' : win0_3.index ⟨tt, hlt⟩ (0 : Fin 2) = tt / 32 := e0
  have e1' : win0_3.index ⟨tt, hlt⟩ (1 : Fin 2) = tt / 8 % 4 := e1
  intro a
  match a with
  | ⟨0, _⟩ =>
    show win0_3.index ⟨tt, hlt⟩ (0 : Fin 2) * 2048 ≤ (i 0).val ∧ (i 0).val < win0_3.index ⟨tt, hlt⟩ (0 : Fin 2) * 2048 + 2048
    rw [e0']; omega
  | ⟨1, _⟩ =>
    show win0_3.index ⟨tt, hlt⟩ (1 : Fin 2) * 1024 ≤ (i 1).val ∧ (i 1).val < win0_3.index ⟨tt, hlt⟩ (1 : Fin 2) * 1024 + 1024
    rw [e1']; omega

/-- The result array after the run. -/
theorem final (c : Dev nD) : (dats m 0 c).arrAt 3 cfg0.N = result m c :=
  (dats m 0 c).arrAt_eq_of_cover 3 (result m c) (flushed_eq m c) cover

/-- The host's last operation views the flat result as batch × sequence × features. -/
theorem tail_eq (c : Dev nD) :
    Pipeline.afterTail₀ cfgs (dats m) 0 (V0 m) [hostOps1] c main_v9
      = shapeCast S4x2048x4096 (result m c) shapeCasts_S8192x4096_S4x2048x4096 := by
  unfold Pipeline.afterTail₀
  show StableHlo.after hostOps1 _ (Proc.devRef .tc main_v9) = _
  after_results
  have e : Pipeline.withArrays (cfgs 0).spec c (V0 m c) (fun w => (dats m 0 c).arrAt w (cfgs 0).N) (Proc.devRef .tc main_v8)
      = result m c :=
    (Pipeline.withArrays_arr spec0 launch0.win.arr_inj c _ _ 3).trans (final m c)
  rw [e]
  rfl

/-- The activations, weights and bias the windows find, as functions of the arguments. -/
theorem acts_eq (c : Dev nD) :
    Accum.acts m c = shapeCast SX (m ((c : Thread nD τ).loc main_arg0)) shapeCasts_S4x2048x4096_S8192x4096 := by
  unfold Accum.acts
  rw [HostIn.V_acts]
theorem bias_eq (c : Dev nD) :
    Accum.biasRow m c = shapeCast SB (m ((c : Thread nD τ).loc main_arg2)) shapeCasts_S4096_S1x4096 := by
  unfold Accum.biasRow
  rw [HostIn.V_bias]
theorem wts_eq (c : Dev nD) :
    Accum.wts m c = ternarize (F := Ideal) bcast_S_S4096x4096 (m ((c : Thread nD τ).loc main_arg1)) := by
  unfold Accum.wts
  rw [HostIn.V_weights]
  rfl

/-- The kernel's result as a function of its arguments: the layer. -/
def out (c : Dev nD) : Buf (Elt Ideal) ((c.tc : Thread nD τ).loc main_v9) :=
  linear3 (m ((c.tc : Thread nD τ).loc main_arg0))
    (ternarize (F := Ideal) bcast_S_S4096x4096 (m ((c.tc : Thread nD τ).loc main_arg1)))
    (m ((c.tc : Thread nD τ).loc main_arg2))

theorem out_eq (c : Dev nD) :
    shapeCast S4x2048x4096 (result m c) shapeCasts_S8192x4096_S4x2048x4096 = out m c := by
  unfold result out
  rw [acts_eq, bias_eq, wts_eq]
  exact reshape_linear2 _ _ _ _ _ _

/-- THE RUN, READ: every weakly fair execution of the kernel's program terminates with the result
    array at the layer of the arguments, the arguments unchanged. -/
theorem run : θ_run defs (onTc (τ := τ) (main (F := Ideal))) ⟨m, fun _ => 0, ρ⟩ fun r => ∀ c : Dev nD,
      r.2.mem ((c.tc : Thread nD τ).loc main_v9) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v9 (Pipeline.mem_restRefs_of main_v9 (by decide) (by decide))).trans ((tail_eq m c).trans (out_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Final

end
-- ==== Proof.RefSide.lean ====
import proofs.«172593_j89799176225619_2_alg».proof.Proof.Gen.ReferenceIdeal.Run
import proofs.«172593_j89799176225619_2_alg».proof.Proof.Gen.ReferenceIdeal.Read
import proofs.«172593_j89799176225619_2_alg».proof.Proof.Spec

noncomputable section

open scoped BigOperators
open Idealize.ShloMosaic Idealize.ShloMosaic.TcCoe Idealize.SL.Sem Idealize.ShloMosaic.ValueIdx

/-! # The reference computes the layer

The reference ternarizes the weights with the same host operations as the kernel's wrapper, contracts
the activations' feature axis with the ternary weights' second axis in one `dot_general` — over the
extended reals the sum over all 4096 features — and adds the bias broadcast along batch and sequence. -/

namespace Cert.RefSide

open Cert.ReferenceIdeal Cert.ReferenceIdeal.Gen Cert.ReferenceIdeal.Read Cert.BitLinear

/-- The reference's ternary weights are the shared function of the weight argument. -/
theorem tern_eq (x1 : FVec Ideal S4096x4096 .f32) :
    val_main_v4 (F := Ideal) x1 = ternarize (F := Ideal) bcast_S_S4096x4096 x1 := rfl

/-- The reference's result, entry by entry. -/
theorem ref_eq (x0 : FVec Ideal S4x2048x4096 .f32) (x1 : FVec Ideal S4096x4096 .f32) (x2 : FVec Ideal S4096 .f32) :
    val_main_v8 (F := Ideal) x0 x1 x2 = linear3 x0 (ternarize (F := Ideal) bcast_S_S4096x4096 x1) x2 := by
  funext i
  obtain ⟨a, s, o, rfl⟩ : ∃ (a : Fin 4) (s : Fin 2048) (o : Fin 4096), i = ix3 a s o := ⟨i 0, i 1, i 2, eq_ix3 i⟩
  have el : ∀ k : Fin 4096, lidx_main_v5 (ix3 a s o) k = ix3 a s k := fun k => funext fun d => Fin.ext (by
    match d with | ⟨0, _⟩ => rfl | ⟨1, _⟩ => rfl | ⟨2, _⟩ => rfl)
  have er : ∀ k : Fin 4096, ridx_main_v5 (ix3 a s o) k = ix2 o k := fun k => funext fun d => Fin.ext (by
    match d with | ⟨0, _⟩ => rfl | ⟨1, _⟩ => rfl)
  have eb : idx_main_v6 (idx_main_v7 (ix3 a s o)) = ix1 o := funext fun d => Fin.ext (by
    match d with | ⟨0, _⟩ => rfl)
  rw [val_main_v8_apply, val_main_v5_apply, val_main_v7_apply, val_main_v6_apply, tern_eq, eb]
  simp only [el, er]
  rfl

end Cert.RefSide

end
-- ==== Proof.lean ====
/- A ternary-weight linear layer against its plain reference, over the extended reals.

   Both programs ternarize the weight matrix with the same host operations (zero where the absolute
   value is below the f32 nearest to 0.33, the sign elsewhere). The kernel flattens the activations to
   8192 rows, and for each 2048 × 1024 block of the result accumulates the dot products eight blocks
   of 512 features at a time, starting from zero, adding the bias after the eighth; the reference takes
   each dot product over all 4096 features at once and adds the bias. A change of float format is the
   identity on extended reals, and a sum of extended reals does not depend on how it is grouped, so
   the two results are equal entry by entry — no entry needs to be finite for that.

   Spec        the layer, the partial dot products, the one regrouping law, the ternarization
   Payload     the three values the body stores, entry by entry
   Pieces      what one grid step leaves in the accumulator and in the output block
   Steps       the same, step to step
   Blocks      which part of each array a step's blocks are
   HostIn      the arrays the windows read, as functions of the arguments
   Accum       the accumulator after every step, by induction on the step
   Final       the result array after the run, and the kernel's run read as the layer
   RefSide     the reference computes the layer -/
import proofs.«172593_j89799176225619_2_alg».proof.Defs
import proofs.«172593_j89799176225619_2_alg».proof.Proof.Gen.Kernel
import proofs.«172593_j89799176225619_2_alg».proof.Proof.Gen.Kernel.Frame
import proofs.«172593_j89799176225619_2_alg».proof.Proof.Gen.KernelIdeal
import proofs.«172593_j89799176225619_2_alg».proof.Proof.Gen.KernelIdeal.Frame
import proofs.«172593_j89799176225619_2_alg».proof.Proof.Gen.ReferenceIdeal
import proofs.«172593_j89799176225619_2_alg».proof.Proof.Gen.ReferenceIdeal.Run
import proofs.«172593_j89799176225619_2_alg».proof.Proof.Gen.ReferenceIdeal.Read
import proofs.«172593_j89799176225619_2_alg».proof.Proof.Gen.Pre_finite_inputs
import proofs.«172593_j89799176225619_2_alg».proof.Proof.Final
import proofs.«172593_j89799176225619_2_alg».proof.Proof.RefSide
import Idealize.ShloMosaic.Adequacy
import Idealize.ShloMosaic.Init

noncomputable section

namespace Cert.Proof

open Idealize.ShloMosaic Idealize.ShloMosaic.TcCoe Idealize.SL.Sem

/-- The kernel's program as printed terminates without a fault and leaves its arguments unchanged. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The reading over the extended reals rewrote nothing. -/
theorem preserves : Cert.preserves_Kernel_KernelIdeal := trivial

/-- Both programs end with the layer of arguments that agree. -/
theorem algebraic : Cert.algebraic_KernelIdeal_ReferenceIdeal := by
  intro m ρ m' ρ' _ hagree
  refine ⟨fun c => Cert.KernelIdeal.Final.out m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.RefSide.ref_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
